-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x96x96x96 : Shape := ⟨5, ![4, 32, 96, 96, 96]⟩
abbrev S4x64 : Shape := ⟨2, ![4, 64]⟩
abbrev S32x64 : Shape := ⟨2, ![32, 64]⟩
abbrev S32 : Shape := ⟨1, ![32]⟩
abbrev S32x32 : Shape := ⟨2, ![32, 32]⟩
abbrev S_ : Shape := ⟨0, ![]⟩

class Facts : Prop where
  bcast_S_S4x32x96x96x96 : S_.BroadcastsInDim S4x32x96x96x96 (![] : Fin 0 → Fin S4x32x96x96x96.rank)
  reducesTo_S4x32x96x96x96_S_d0_1_2_3_4 : S4x32x96x96x96.ReducesTo [0, 1, 2, 3, 4] S_
  h_S_ : 0 < S_.numel
  bcast_S_S4x64 : S_.BroadcastsInDim S4x64 (![] : Fin 0 → Fin S4x64.rank)
  reducesTo_S4x64_S_d0_1 : S4x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_arg5 : FVec F S32 .f32) (main_arg6 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S4x32x96x96x96 .f32) (main_arg1 : FVec F S4x64 .f32) (main_arg2 : FVec F S32x64 .f32) (main_arg3 : FVec F S32 .f32) (main_arg4 : FVec F S32x32 .f32) (main_arg5 : FVec F S32 .f32) (main_arg6 : FVec F S32 .f32) : IVec S_ 1 :=
  let main_v0 : FVec F S4x32x96x96x96 .f32 := Host.absf main_arg0
  let main_cst : FVec F S_ .f32 := constant S_ .f32 0x7F800000#32
  let main_v1 : FVec F S4x32x96x96x96 .f32 := broadcastInDim S4x32x96x96x96 ![] bcast_S_S4x32x96x96x96 main_cst
  let main_v2 : IVec S4x32x96x96x96 1 := cmpf .olt main_v0 main_v1
  let main_c : IVec S_ 1 := constantI S_ 1 1#1
  let main_v3 : IVec S_ 1 := (fun x v => Host.reduce IntOp.andi x v reducesTo_S4x32x96x96x96_S_d0_1_2_3_4 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_v13 main_v16
-- ==== Kernel.lean ====
abbrev S4x32x96x96x96 : Shape := ⟨5, ![4, 32, 96, 96, 96]⟩
abbrev S4x64 : Shape := ⟨2, ![4, 64]⟩
abbrev S32x64 : Shape := ⟨2, ![32, 64]⟩
abbrev S32 : Shape := ⟨1, ![32]⟩
abbrev S32x32 : Shape := ⟨2, ![32, 32]⟩
abbrev S64x32 : Shape := ⟨2, ![64, 32]⟩
abbrev S4x32 : Shape := ⟨2, ![4, 32]⟩
abbrev S1x32 : Shape := ⟨2, ![1, 32]⟩
abbrev S_ : Shape := ⟨0, ![]⟩
abbrev S4x32x884736 : Shape := ⟨3, ![4, 32, 884736]⟩
abbrev S4x32x1 : Shape := ⟨3, ![4, 32, 1]⟩
abbrev S4x64x884736 : Shape := ⟨3, ![4, 64, 884736]⟩
abbrev S1x32x36864 : Shape := ⟨3, ![1, 32, 36864]⟩
abbrev S1x32x1 : Shape := ⟨3, ![1, 32, 1]⟩
abbrev S1x64x36864 : Shape := ⟨3, ![1, 64, 36864]⟩
abbrev S4x64x96x96x96 : Shape := ⟨5, ![4, 64, 96, 96, 96]⟩

abbrev nBuf : Space → Nat
  | .hbm => 51
  | .vmem => 6
  | .smem => 0
  | _ => 0

abbrev bufTy : (tb : Table) → Fin (tcTables nBuf tb) → BufTy
  | .hbm, ⟨0, _⟩ => ⟨S4x32x96x96x96, .f32⟩
  | .hbm, ⟨1, _⟩ => ⟨S4x64, .f32⟩
  | .hbm, ⟨2, _⟩ => ⟨S32x64, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S64x32, .f32⟩
  | .hbm, ⟨8, _⟩ => ⟨S4x32, .f32⟩
  | .hbm, ⟨9, _⟩ => ⟨S1x32, .f32⟩
  | .hbm, ⟨10, _⟩ => ⟨S4x32, .f32⟩
  | .hbm, ⟨11, _⟩ => ⟨S4x32, .f32⟩
  | .hbm, ⟨12, _⟩ => ⟨S32x32, .f32⟩
  | .hbm, ⟨13, _⟩ => ⟨S4x32, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S4x32, .f32⟩
  | .hbm, ⟨21, _⟩ => ⟨S4x32, .f32⟩
  | .hbm, ⟨22, _⟩ => ⟨S4x32, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S1x32, .f32⟩
  | .hbm, ⟨29, _⟩ => ⟨S4x32, .f32⟩
  | .hbm, ⟨30, _⟩ => ⟨S4x32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S1x32, .f32⟩
  | .hbm, ⟨36, _⟩ => ⟨S4x32, .f32⟩
  | .hbm, ⟨37, _⟩ => ⟨S4x32, .f32⟩
  | .hbm, ⟨38, _⟩ => ⟨S1x32, .f32⟩
  | .hbm, ⟨39, _⟩ => ⟨S4x32, .f32⟩
  | .hbm, ⟨40, _⟩ => ⟨S4x32, .f32⟩
  | .hbm, ⟨41, _⟩ => ⟨S1x32, .f32⟩
  | .hbm, ⟨42, _⟩ => ⟨S4x32, .f32⟩
  | .hbm, ⟨43, _⟩ => ⟨S4x32, .f32⟩
  | .hbm, ⟨44, _⟩ => ⟨S_, .f32⟩
  | .hbm, ⟨45, _⟩ => ⟨S4x32, .f32⟩
  | .hbm, ⟨46, _⟩ => ⟨S4x32, .f32⟩
  | .hbm, ⟨47, _⟩ => ⟨S4x32x884736, .f32⟩
  | .hbm, ⟨48, _⟩ => ⟨S4x32x1, .f32⟩
  | .hbm, ⟨49, _⟩ => ⟨S4x64x884736, .f32⟩
  | .hbm, ⟨50, _⟩ => ⟨S4x64x96x96x96, .f32⟩
  | .local _ .vmem, ⟨0, _⟩ => ⟨S1x32x36864, .f32⟩
  | .local _ .vmem, ⟨1, _⟩ => ⟨S1x32x36864, .f32⟩
  | .local _ .vmem, ⟨2, _⟩ => ⟨S1x32x1, .f32⟩
  | .local _ .vmem, ⟨3, _⟩ => ⟨S1x32x1, .f32⟩
  | .local _ .vmem, ⟨4, _⟩ => ⟨S1x64x36864, .f32⟩
  | .local _ .vmem, ⟨5, _⟩ => ⟨S1x64x36864, .f32⟩
  | _, _ => ⟨S4x32x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x36864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x36864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S32x64_S64x32_1_0 : S32x64.Transposes [1, 0] S64x32
  bcast_S32_S1x32_1 : S32.BroadcastsInDim S1x32 (![1] : Fin 1 → Fin S1x32.rank)
  bcast_S1x32_S4x32_0_1 : S1x32.BroadcastsInDim S4x32 (![0, 1] : Fin 2 → Fin S4x32.rank)
  transposes_S32x32_S32x32_1_0 : S32x32.Transposes [1, 0] S32x32
  reducesTo_S4x32_S32_d0 : S4x32.ReducesTo [0] S32
  h_S_ : 0 < S_.numel
  bcast_S_S32 : S_.BroadcastsInDim S32 (![] : Fin 0 → Fin S32.rank)
  bcast_S_S4x32 : S_.BroadcastsInDim S4x32 (![] : Fin 0 → Fin S4x32.rank)
  shapeCasts_S4x32x96x96x96_S4x32x884736 : S4x32x96x96x96.ShapeCasts S4x32x884736
  shapeCasts_S4x32_S4x32x1 : S4x32.ShapeCasts S4x32x1
  inb_S1x32x36864_S1x32x36864_0_0_0 : ∀ a, (![0, 0, 0] : Fin 3 → Nat) a + S1x32x36864.size a ≤ S1x32x36864.size a
  h_S1x32x36864 : 0 < S1x32x36864.numel
  shapeCasts_S1x32x36864_S1x32x36864 : S1x32x36864.ShapeCasts S1x32x36864
  inb_S1x64x36864_S1x32x36864_0_0_0 : ∀ a, (![0, 0, 0] : Fin 3 → Nat) a + S1x32x36864.size a ≤ S1x64x36864.size a
  inb_S1x32x1_S1x32x1_0_0_0 : ∀ a, (![0, 0, 0] : Fin 3 → Nat) a + S1x32x1.size a ≤ S1x32x1.size a
  h_S1x32x1 : 0 < S1x32x1.numel
  shapeCasts_S1x32x1_S1x32x1 : S1x32x1.ShapeCasts S1x32x1
  broadcasts_S1x32x1_S1x32x36864 : S1x32x1.Broadcasts S1x32x36864
  inb_S1x64x36864_S1x32x36864_0_32_0 : ∀ a, (![0, 32, 0] : Fin 3 → Nat) a + S1x32x36864.size a ≤ S1x64x36864.size a
  shapeCasts_S4x64x884736_S4x64x96x96x96 : S4x64x884736.ShapeCasts S4x64x96x96x96
  dot_S4x64_S64x32_S4x32_1_0_0_1_n_n_wf : DotDims.WF S4x64 S64x32 S4x32 [1] [0] [0] [1] [] []
  dot_S4x32_S32x32_S4x32_1_0_0_1_n_n_wf : DotDims.WF S4x32 S32x32 S4x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x36864.size a ≤ S4x32x884736.size a
  hwx0_0 : ∀ i : grid0.Coords, EltTy.bits .f32 = 32 ∨ (Rect.block (s := S4x32x884736) S1x32x36864.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1.size a ≤ S4x32x1.size a
  hwx0_1 : ∀ i : grid0.Coords, EltTy.bits .f32 = 32 ∨ (Rect.block (s := S4x32x1) S1x32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x36864.size a ≤ S4x64x884736.size a
  hwx0_2 : ∀ i : grid0.Coords, EltTy.bits .f32 = 32 ∨ (Rect.block (s := S4x64x884736) S1x64x36864.size (cc0_transform_2 i) (hinb0_2 i)).WholeWords (EltTy.packing .f32)

variable [Facts₀]

def dot_S4x64_S64x32_S4x32_1_0_0_1_n_n : DotDims S4x64 S64x32 S4x32 where
  lhsContracting := [1]
  rhsContracting := [0]
  lhsNonContracting := [0]
  rhsNonContracting := [1]
  lhsBatch := []
  rhsBatch := []
  wf := dot_S4x64_S64x32_S4x32_1_0_0_1_n_n_wf
def dot_S4x32_S32x32_S4x32_1_0_0_1_n_n : DotDims S4x32 S32x32 S4x32 where
  lhsContracting := [1]
  rhsContracting := [0]
  lhsNonContracting := [0]
  rhsNonContracting := [1]
  lhsBatch := []
  rhsBatch := []
  wf := dot_S4x32_S32x32_S4x32_1_0_0_1_n_n_wf

abbrev win0_0 : Pipeline.Window sig grid0 :=
  Pipeline.Window.ofSpec (Memref.whole main_v33) S1x32x36864.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1x32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x64x36864.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x96x96x96 : Shape := ⟨5, ![4, 32, 96, 96, 96]⟩
abbrev S4x64 : Shape := ⟨2, ![4, 64]⟩
abbrev S32x64 : Shape := ⟨2, ![32, 64]⟩
abbrev S32 : Shape := ⟨1, ![32]⟩
abbrev S32x32 : Shape := ⟨2, ![32, 32]⟩
abbrev S64x32 : Shape := ⟨2, ![64, 32]⟩
abbrev S4x32 : Shape := ⟨2, ![4, 32]⟩
abbrev S1x32 : Shape := ⟨2, ![1, 32]⟩
abbrev S_ : Shape := ⟨0, ![]⟩
abbrev S4x32x1x1x1 : Shape := ⟨5, ![4, 32, 1, 1, 1]⟩
abbrev S4x64x96x96x96 : Shape := ⟨5, ![4, 64, 96, 96, 96]⟩

abbrev nBuf : Space → Nat
  | .hbm => 50
  | .vmem => 0
  | .smem => 0
  | _ => 0

abbrev bufTy : (tb : Table) → Fin (tcTables nBuf tb) → BufTy
  | .hbm, ⟨0, _⟩ => ⟨S4x32x96x96x96, .f32⟩
  | .hbm, ⟨1, _⟩ => ⟨S4x64, .f32⟩
  | .hbm, ⟨2, _⟩ => ⟨S32x64, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S64x32, .f32⟩
  | .hbm, ⟨8, _⟩ => ⟨S4x32, .f32⟩
  | .hbm, ⟨9, _⟩ => ⟨S1x32, .f32⟩
  | .hbm, ⟨10, _⟩ => ⟨S4x32, .f32⟩
  | .hbm, ⟨11, _⟩ => ⟨S4x32, .f32⟩
  | .hbm, ⟨12, _⟩ => ⟨S32x32, .f32⟩
  | .hbm, ⟨13, _⟩ => ⟨S4x32, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S4x32, .f32⟩
  | .hbm, ⟨21, _⟩ => ⟨S4x32, .f32⟩
  | .hbm, ⟨22, _⟩ => ⟨S4x32, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S1x32, .f32⟩
  | .hbm, ⟨29, _⟩ => ⟨S4x32, .f32⟩
  | .hbm, ⟨30, _⟩ => ⟨S4x32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S1x32, .f32⟩
  | .hbm, ⟨36, _⟩ => ⟨S4x32, .f32⟩
  | .hbm, ⟨37, _⟩ => ⟨S4x32, .f32⟩
  | .hbm, ⟨38, _⟩ => ⟨S1x32, .f32⟩
  | .hbm, ⟨39, _⟩ => ⟨S4x32, .f32⟩
  | .hbm, ⟨40, _⟩ => ⟨S4x32, .f32⟩
  | .hbm, ⟨41, _⟩ => ⟨S1x32, .f32⟩
  | .hbm, ⟨42, _⟩ => ⟨S4x32, .f32⟩
  | .hbm, ⟨43, _⟩ => ⟨S4x32, .f32⟩
  | .hbm, ⟨44, _⟩ => ⟨S_, .f32⟩
  | .hbm, ⟨45, _⟩ => ⟨S4x32, .f32⟩
  | .hbm, ⟨46, _⟩ => ⟨S4x32, .f32⟩
  | .hbm, ⟨47, _⟩ => ⟨S4x32x1x1x1, .f32⟩
  | .hbm, ⟨48, _⟩ => ⟨S4x32x96x96x96, .f32⟩
  | .hbm, ⟨49, _⟩ => ⟨S4x64x96x96x96, .f32⟩
  | _, _ => ⟨S4x32x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  transposes_S32x64_S64x32_1_0 : S32x64.Transposes [1, 0] S64x32
  bcast_S32_S1x32_1 : S32.BroadcastsInDim S1x32 (![1] : Fin 1 → Fin S1x32.rank)
  bcast_S1x32_S4x32_0_1 : S1x32.BroadcastsInDim S4x32 (![0, 1] : Fin 2 → Fin S4x32.rank)
  transposes_S32x32_S32x32_1_0 : S32x32.Transposes [1, 0] S32x32
  reducesTo_S4x32_S32_d0 : S4x32.ReducesTo [0] S32
  h_S_ : 0 < S_.numel
  bcast_S_S32 : S_.BroadcastsInDim S32 (![] : Fin 0 → Fin S32.rank)
  bcast_S_S4x32 : S_.BroadcastsInDim S4x32 (![] : Fin 0 → Fin S4x32.rank)
  bcast_S4x32_S4x32x1x1x1_0_1 : S4x32.BroadcastsInDim S4x32x1x1x1 (![0, 1] : Fin 2 → Fin S4x32x1x1x1.rank)
  bcast_S4x32x1x1x1_S4x32x96x96x96_0_1_2_3_4 : S4x32x1x1x1.BroadcastsInDim S4x32x96x96x96 (![0, 1, 2, 3, 4] : Fin 5 → Fin S4x32x96x96x96.rank)
  concatenates_S4x32x96x96x96_S4x32x96x96x96_S4x64x96x96x96_d1 : Shape.Concatenates [S4x32x96x96x96, S4x32x96x96x96] S4x64x96x96x96 1
  dot_S4x64_S64x32_S4x32_1_0_0_1_n_n_wf : DotDims.WF S4x64 S64x32 S4x32 [1] [0] [0] [1] [] []
  dot_S4x32_S32x32_S4x32_1_0_0_1_n_n_wf : DotDims.WF S4x32 S32x32 S4x32 [1] [0] [0] [1] [] []

variable [Facts₀]

def dot_S4x64_S64x32_S4x32_1_0_0_1_n_n : DotDims S4x64 S64x32 S4x32 where
  lhsContracting := [1]
  rhsContracting := [0]
  lhsNonContracting := [0]
  rhsNonContracting := [1]
  lhsBatch := []
  rhsBatch := []
  wf := dot_S4x64_S64x32_S4x32_1_0_0_1_n_n_wf
def dot_S4x32_S32x32_S4x32_1_0_0_1_n_n : DotDims S4x32 S32x32 S4x32 where
  lhsContracting := [1]
  rhsContracting := [0]
  lhsNonContracting := [0]
  rhsNonContracting := [1]
  lhsBatch := []
  rhsBatch := []
  wf := dot_S4x32_S32x32_S4x32_1_0_0_1_n_n_wf

class Facts : Prop extends Facts₀ where

variable [Facts]
-- ==== Proof.Block.lean ====
/-
  What the kernel body leaves in one block of the output.

  At a grid point the body sees a block of the flat volume, [1, 32, 36864] (one batch entry, all 32 channels,
  36864 consecutive flat positions), and the activation column of that batch entry, [1, 32, 1]. It writes the
  output block [1, 64, 36864] with two stores: rows 0–31 receive the volume block unchanged, rows 32–63 receive
  the activation column spread along the 36864 lanes. The two stores tile the block, so the block after the body
  is ONE function of the two input blocks (`blockJoin`): row `r < 32` at lane `l` is the volume block's
  `(r, l)`, row `r ≥ 32` at any lane is the column's entry `r - 32`. Each store's payload agrees with that
  function on the store's rectangle (`upper_rows`, `lower_rows`), hence so does the block (`block_eq`).
-/
import proofs.«117737_j54065048322100_2_alg».proof.Proof.Gen.KernelIdeal.Frame
import Idealize.ShloMosaic.Lib.Pipeline.Value
import Idealize.ShloMosaic.Lib.ValueIdx

noncomputable section

namespace Cert.KernelIdeal.Block

open Idealize.ShloMosaic Idealize.ShloMosaic.ValueIdx Idealize.SL.Sem
open Cert.KernelIdeal Cert.KernelIdeal.Gen

variable {F : FTy → Type} [FloatOps F]

/-- The zero offsets of a rank-3 access, as the constant function. -/
theorem zero3 : (![0, 0, 0] : Fin 3 → Nat) = fun _ => 0 := funext fun a => by fin_cases a <;> rfl

/-- The output block as one function of the volume block `x0` and the activation column `x1`. -/
def blockJoin (x0 : Vec F S1x32x36864 .f32) (x1 : Vec F S1x32x1 .f32) : Vec F S1x64x36864 .f32 := fun y =>
  if h : (y 1).val < 32 then
    x0 (ix3 (⟨(y 0).val, (y 0).isLt⟩ : Fin 1) (⟨(y 1).val, h⟩ : Fin 32) (⟨(y 2).val, (y 2).isLt⟩ : Fin 36864))
  else
    x1 (ix3 (⟨(y 0).val, (y 0).isLt⟩ : Fin 1)
      (⟨(y 1).val - 32, by have : (y 1).val < 64 := (y 1).isLt; omega⟩ : Fin 32) (0 : Fin 1))

/-- The first store (rows 0–31, all lanes) writes the volume block as loaded: its two shape casts are to the
    block's own shape. At the store's local index `x` the block index is `x` itself. -/
theorem upper_rows (x0 : Vec F S1x32x36864 .f32) (x1 : Vec F S1x32x1 .f32) (x : S1x32x36864.Idx) :
    k0_pay1 (View.ld x0 r0_0) x = blockJoin x0 x1 (r0_1.emb x) := by
  unfold k0_pay1
  rw [shapeCast_self, View.ld_unit_zero (S := S1x32x36864) zero3]
  unfold blockJoin
  have hx : (x 1).val < 32 := (x 1).isLt
  have hr : ((r0_1.emb x) 1).val = (x 1).val := by
    show 0 + 1 * (x 1).val = (x 1).val
    omega
  rw [dif_pos (show ((r0_1.emb x) 1).val < 32 by rw [hr]; exact hx)]
  refine congrArg x0 (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

/-- The second store (rows 32–63, all lanes) writes the activation column broadcast along the lanes: at the
    store's local index `x` — block index `(x 0, 32 + x 1, x 2)` — it is the column's entry `x 1`. -/
theorem lower_rows (x0 : Vec F S1x32x36864 .f32) (x1 : Vec F S1x32x1 .f32) (x : S1x32x36864.Idx) :
    k0_pay2 (View.ld x1 r0_2) x = blockJoin x0 x1 (r0_3.emb x) := by
  unfold k0_pay2
  rw [shapeCast_self, shapeCast_self, View.ld_unit_zero (S := S1x32x1) zero3]
  have hx : (x 1).val < 32 := (x 1).isLt
  have hx0 : (x 0).val = 0 := by have : (x 0).val < 1 := (x 0).isLt; omega
  -- the broadcast reads the column at row `x 1`, its unit axes at 0
  rw [broadcastTo_apply x1 broadcasts_S1x32x1_S1x32x36864 x
    (ix3 (0 : Fin 1) (⟨(x 1).val, hx⟩ : Fin 32) (0 : Fin 1)) (fun a => by
      match a with
      | ⟨0, _⟩ => show 0 = if (1 : Nat) = 1 then 0 else _; rw [if_pos rfl]
      | ⟨1, _⟩ => show (x 1).val = if (32 : Nat) = 1 then 0 else (x 1).val; rw [if_neg (by decide)]
      | ⟨2, _⟩ => show 0 = if (1 : Nat) = 1 then 0 else _; rw [if_pos rfl])]
  unfold blockJoin
  have hr : ((r0_3.emb x) 1).val = 32 + (x 1).val := by
    show 32 + 1 * (x 1).val = 32 + (x 1).val
    omega
  rw [dif_neg (show ¬ ((r0_3.emb x) 1).val < 32 by rw [hr]; omega)]
  refine congrArg x1 (funext fun a => Fin.ext ?_)
  match a with
  | ⟨0, _⟩ => show 0 = 0 + 1 * (x 0).val; omega
  | ⟨1, _⟩ => show (x 1).val = ((r0_3.emb x) 1).val - 32; rw [hr]; omega
  | ⟨2, _⟩ => rfl

/-- THE BLOCK AFTER THE BODY is `blockJoin` of the two input blocks: both stores are restrictions of it, and
    together they cover the block. -/
theorem block_eq (x0 : Vec F S1x32x36864 .f32) (x1 : Vec F S1x32x1 .f32) : out0_2 x0 x1 = blockJoin x0 x1 := by
  funext y
  unfold out0_2
  refine View.canon_apply_of_pieces (blockJoin x0 x1) _ ?_ y (cover0_2 _ _ y)
  intro p hp
  simp only [List.mem_cons, List.mem_nil_iff, or_false] at hp
  rcases hp with rfl | rfl
  · exact lower_rows x0 x1
  · exact upper_rows x0 x1

end Cert.KernelIdeal.Block

end
-- ==== Proof.Joined.lean ====
/-
  Two arrays joined along the channel axis, stated once with five axes and once with the three spatial
  axes laid out as one.

  The result of both programs is the array `out[n, c, d, h, w]` over [4, 64, 96, 96, 96] whose first 32
  channels are the volume `vol[n, c, d, h, w]` and whose last 32 channels hold, at every spatial position,
  the activation `act[n, c - 32]`: the activation is constant along d, h and w (`joined`).

  The kernel works on the spatial axes flattened to one axis of 96 · 96 · 96 = 884736 positions, with the
  activation as a column [4, 32, 1]; there the same array is `joinedFlat`. Position `s = (d · 96 + h) · 96 + w`
  of the flat axis is the spatial position `(d, h, w)`: a reshape keeps the row-major order of the
  elements, and the leading axes `n`, `c` are untouched. `unflatten_joinedFlat` says the two statements are
  one array: the flat join of the flattened volume and of the activation column, reshaped back to five axes,
  is the join.
-/
import Idealize.ShloMosaic.Lib.ValueIdx
import Idealize.ShloMosaic.Lib.Pipeline.Value

noncomputable section

namespace Cert.Joined

open Idealize.ShloMosaic Idealize.ShloMosaic.ValueIdx

variable {α : Type}

/-- The volume, [N, C, D, H, W]. -/
abbrev Vol : Shape := ⟨5, ![4, 32, 96, 96, 96]⟩
/-- The activation, [N, C]. -/
abbrev Act : Shape := ⟨2, ![4, 32]⟩
/-- The result, [N, 2C, D, H, W]. -/
abbrev Out : Shape := ⟨5, ![4, 64, 96, 96, 96]⟩
/-- The volume with its spatial axes as one, [N, C, D·H·W]. -/
abbrev VolFlat : Shape := ⟨3, ![4, 32, 884736]⟩
/-- The activation as a column, [N, C, 1]. -/
abbrev ActCol : Shape := ⟨3, ![4, 32, 1]⟩
/-- The result with its spatial axes as one, [N, 2C, D·H·W]. -/
abbrev OutFlat : Shape := ⟨3, ![4, 64, 884736]⟩

/-- The join along the channel axis: channel `c < 32` is the volume's channel `c`, channel `c ≥ 32` is the
    activation's channel `c - 32` at every spatial position. -/
def joined (vol : Vol.Idx → α) (act : Act.Idx → α) : Out.Idx → α := fun j =>
  if h : (j 1).val < 32 then
    vol (ix5 (⟨(j 0).val, (j 0).isLt⟩ : Fin 4) (⟨(j 1).val, h⟩ : Fin 32) (⟨(j 2).val, (j 2).isLt⟩ : Fin 96)
      (⟨(j 3).val, (j 3).isLt⟩ : Fin 96) (⟨(j 4).val, (j 4).isLt⟩ : Fin 96))
  else
    act (ix2 (⟨(j 0).val, (j 0).isLt⟩ : Fin 4)
      (⟨(j 1).val - 32, by have : (j 1).val < 64 := (j 1).isLt; omega⟩ : Fin 32))

/-- The same join over the flat spatial axis: channel `c < 32` is the flat volume's channel `c` at the same
    position, channel `c ≥ 32` is the one entry of the activation column's row `c - 32`. -/
def joinedFlat (v : VolFlat.Idx → α) (a : ActCol.Idx → α) : OutFlat.Idx → α := fun j =>
  if h : (j 1).val < 32 then
    v (ix3 (⟨(j 0).val, (j 0).isLt⟩ : Fin 4) (⟨(j 1).val, h⟩ : Fin 32) (⟨(j 2).val, (j 2).isLt⟩ : Fin 884736))
  else
    a (ix3 (⟨(j 0).val, (j 0).isLt⟩ : Fin 4)
      (⟨(j 1).val - 32, by have : (j 1).val < 64 := (j 1).isLt; omega⟩ : Fin 32) (0 : Fin 1))

/-- The flat volume at `(n, c, s)` is the volume at the spatial position whose row-major place is `s`. -/
theorem flatVol_apply (vol : Vol.Idx → α) (h : Vol.ShapeCasts VolFlat) (n : Fin 4) (c : Fin 32) (d hh w : Fin 96)
    (s : Fin 884736) (hs : s.val = (d.val * 96 + hh.val) * 96 + w.val) :
    shapeCast VolFlat vol h (ix3 n c s) = vol (ix5 n c d hh w) := by
  refine shapeCast_apply vol h (ix3 n c s) (ix5 n c d hh w) ?_
  rw [Shape.rowMajor_val_five, Shape.rowMajor_val_three]
  show ((((n.val * 32 + c.val) * 96 + d.val) * 96 + hh.val) * 96 + w.val) = (n.val * 32 + c.val) * 884736 + s.val
  omega

/-- The activation column at `(n, c, 0)` is the activation at `(n, c)`. -/
theorem actCol_apply (act : Act.Idx → α) (h : Act.ShapeCasts ActCol) (n : Fin 4) (c : Fin 32) :
    shapeCast ActCol act h (ix3 n c (0 : Fin 1)) = act (ix2 n c) := by
  refine shapeCast_apply act h (ix3 n c (0 : Fin 1)) (ix2 n c) ?_
  rw [Shape.rowMajor_val_two, Shape.rowMajor_val_three]
  show n.val * 32 + c.val = (n.val * 32 + c.val) * 1 + 0
  omega

/-- A flat result reshaped to five axes, at `(n, c, d, h, w)`, is the flat result at `(n, c, (d·96 + h)·96 + w)`. -/
theorem unflatten_apply (y : OutFlat.Idx → α) (h : OutFlat.ShapeCasts Out) (n : Fin 4) (c : Fin 64) (d hh w : Fin 96)
    (s : Fin 884736) (hs : s.val = (d.val * 96 + hh.val) * 96 + w.val) :
    shapeCast Out y h (ix5 n c d hh w) = y (ix3 n c s) := by
  refine shapeCast_apply y h (ix5 n c d hh w) (ix3 n c s) ?_
  rw [Shape.rowMajor_val_five, Shape.rowMajor_val_three]
  show (n.val * 64 + c.val) * 884736 + s.val = ((((n.val * 64 + c.val) * 96 + d.val) * 96 + hh.val) * 96 + w.val)
  omega

/-- THE TWO STATEMENTS ARE ONE ARRAY: flatten the volume, make the activation a column, join them over the flat
    axis and reshape the result to five axes — that is the join of the volume and the activation. -/
theorem unflatten_joinedFlat (vol : Vol.Idx → α) (act : Act.Idx → α)
    (h1 : Vol.ShapeCasts VolFlat) (h2 : Act.ShapeCasts ActCol) (h3 : OutFlat.ShapeCasts Out) :
    shapeCast Out (joinedFlat (shapeCast VolFlat vol h1) (shapeCast ActCol act h2)) h3 = joined vol act := by
  funext j
  obtain ⟨n, c, d, hh, w, rfl⟩ : ∃ (n : Fin 4) (c : Fin 64) (d hh w : Fin 96), j = ix5 n c d hh w :=
    ⟨j 0, j 1, j 2, j 3, j 4, eq_ix5 j⟩
  have hd : d.val < 96 := d.isLt
  have hh' : hh.val < 96 := hh.isLt
  have hw : w.val < 96 := w.isLt
  -- the spatial position's place on the flat axis
  let s : Fin 884736 := ⟨(d.val * 96 + hh.val) * 96 + w.val, by omega⟩
  rw [unflatten_apply _ h3 n c d hh w s rfl]
  unfold joinedFlat joined
  by_cases hc : c.val < 32
  · rw [dif_pos (show ((ix3 n c s : OutFlat.Idx) 1).val < 32 from hc),
      dif_pos (show ((ix5 n c d hh w : Out.Idx) 1).val < 32 from hc)]
    exact flatVol_apply vol h1 n ⟨c.val, hc⟩ d hh w s rfl
  · rw [dif_neg (show ¬ ((ix3 n c s : OutFlat.Idx) 1).val < 32 from hc),
      dif_neg (show ¬ ((ix5 n c d hh w : Out.Idx) 1).val < 32 from hc)]
    exact actCol_apply act h2 n ⟨c.val - 32, by have : c.val < 64 := c.isLt; omega⟩

end Cert.Joined

end
-- ==== Proof.Whole.lean ====
/-
  From blocks to the whole array: what the region leaves in the flat result [4, 64, 884736].

  The grid has 4 · 24 points `(n, k)`. At point `(n, k)` the volume's block is batch entry `n`, all channels,
  flat positions `36864 k … 36864 k + 36863`; the activation column's block is batch entry `n`; and the output's
  block is batch entry `n`, all 64 channels, the same 36864 flat positions. So element `(0, r, l)` of a block at
  that point is element `(n, r, 36864 k + l)` of its array (`volBlock_apply`, `actBlock_apply`), and the block the
  body leaves (Block.lean's `blockJoin`) is the block of ONE function of the two arrays the region reads — the
  flat join of Joined.lean (`flushed_eq`). Every index `(n, c, s)` of the flat result lies in the block of the
  point `(n, s / 36864)` (`cover`), so after the run the flat result is that join (`final`).
-/
import proofs.«117737_j54065048322100_2_alg».proof.Proof.Gen.KernelIdeal.Frame
import proofs.«117737_j54065048322100_2_alg».proof.Proof.Block
import proofs.«117737_j54065048322100_2_alg».proof.Proof.Joined
import Idealize.ShloMosaic.Lib.Pipeline.Value
import Idealize.ShloMosaic.Lib.ValueIdx

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.Joined

variable {F : FTy → Type} [FloatOps F]
variable (m : (ℓ : Loc nD τ sig) → Buf (Elt F) ℓ)

/-- The three index maps over the grid: all move with the batch entry on axis 0; the volume's and the output's
    move together along the flat axis, where the activation column stays; none moves along the channels. -/
theorem idx_facts : ∀ t : Fin cfg0.N,
    win0_0.index t (0 : Fin 3) = win0_2.index t (0 : Fin 3) ∧ win0_0.index t (1 : Fin 3) = 0
    ∧ win0_0.index t (2 : Fin 3) = win0_2.index t (2 : Fin 3)
    ∧ win0_1.index t (0 : Fin 3) = win0_2.index t (0 : Fin 3) ∧ win0_1.index t (1 : Fin 3) = 0
    ∧ win0_1.index t (2 : Fin 3) = 0
    ∧ win0_2.index t (1 : Fin 3) = 0 ∧ win0_2.index t (0 : Fin 3) ≤ 3 ∧ win0_2.index t (2 : Fin 3) ≤ 23 :=
  (by decide +kernel : ∀ t : Fin grid0.N, _)

/-- Every pair (batch entry, stretch of the flat axis) is some point's output block. -/
theorem idx_onto : ∀ (q0 : Fin 4) (q2 : Fin 24), ∃ t : Fin cfg0.N, win0_2.index t = ![q0.val, 0, q2.val] :=
  (by decide +kernel : ∀ (q0 : Fin 4) (q2 : Fin 24), ∃ t : Fin grid0.N, win0_2.index t = ![q0.val, 0, q2.val])

/-- The volume's block at point `t`, read at `z`, is the flat volume at `k` whenever `k` is `z` moved to the
    block's place: batch entry the block's, the same channel, flat position the block's start plus `z`'s lane. -/
theorem volBlock_apply (c : Dev nD) (t : Fin cfg0.N) (z : S1x32x36864.Idx) (k : S4x32x884736.Idx)
    (hk0 : (k 0).val = win0_0.index t (0 : Fin 3)) (hk1 : (k 1).val = win0_0.index t (1 : Fin 3) * 32 + (z 1).val)
    (hk2 : (k 2).val = win0_0.index t (2 : Fin 3) * 36864 + (z 2).val) :
    (iblk m c 0 t : Vec F S1x32x36864 .f32) z = (V m c main_v33 : S4x32x884736.Idx → Elt F .f32) k := by
  have hz0 : (z 0).val = 0 := by have : (z 0).val < 1 := (z 0).isLt; omega
  unfold iblk
  rw [View.read_apply]
  show (V m c main_v33 : S4x32x884736.Idx → Elt F .f32) _ = (V m c main_v33 : S4x32x884736.Idx → Elt F .f32) k
  refine congrArg (V m c main_v33 : S4x32x884736.Idx → Elt F .f32) (funext fun a => Fin.ext ?_)
  match a with
  | ⟨0, _⟩ => show win0_0.index t (0 : Fin 3) * 1 + 1 * (z 0).val = (k 0).val; omega
  | ⟨1, _⟩ => show win0_0.index t (1 : Fin 3) * 32 + 1 * (z 1).val = (k 1).val; omega
  | ⟨2, _⟩ => show win0_0.index t (2 : Fin 3) * 36864 + 1 * (z 2).val = (k 2).val; omega

/-- The activation column's block at point `t`, read at `z`, is the column at the block's batch entry and `z`'s row. -/
theorem actBlock_apply (c : Dev nD) (t : Fin cfg0.N) (z : S1x32x1.Idx) (k : S4x32x1.Idx)
    (hk0 : (k 0).val = win0_1.index t (0 : Fin 3)) (hk1 : (k 1).val = win0_1.index t (1 : Fin 3) * 32 + (z 1).val)
    (hk2 : (k 2).val = win0_1.index t (2 : Fin 3) * 1 + (z 2).val) :
    (iblk m c 1 t : Vec F S1x32x1 .f32) z = (V m c main_v34 : S4x32x1.Idx → Elt F .f32) k := by
  have hz0 : (z 0).val = 0 := by have : (z 0).val < 1 := (z 0).isLt; omega
  unfold iblk
  rw [View.read_apply]
  show (V m c main_v34 : S4x32x1.Idx → Elt F .f32) _ = (V m c main_v34 : S4x32x1.Idx → Elt F .f32) k
  refine congrArg (V m c main_v34 : S4x32x1.Idx → Elt F .f32) (funext fun a => Fin.ext ?_)
  match a with
  | ⟨0, _⟩ => show win0_1.index t (0 : Fin 3) * 1 + 1 * (z 0).val = (k 0).val; omega
  | ⟨1, _⟩ => show win0_1.index t (1 : Fin 3) * 32 + 1 * (z 1).val = (k 1).val; omega
  | ⟨2, _⟩ => show win0_1.index t (2 : Fin 3) * 1 + 1 * (z 2).val = (k 2).val; omega

/-- A block join is the block of the flat join: if the volume block `x0` is the flat volume `v` read from batch
    entry `b0` and flat position `36864 b2` on, and the column block `x1` is the column `a` at batch entry `b0`,
    then the block join at `y` is the flat join at `(b0, y 1, 36864 b2 + y 2)`. -/
theorem blockJoin_eq_joinedFlat (v : VolFlat.Idx → Elt F .f32) (a : ActCol.Idx → Elt F .f32)
    (x0 : Vec F S1x32x36864 .f32) (x1 : Vec F S1x32x1 .f32) (b0 b2 : Nat)
    (h0 : ∀ (z : S1x32x36864.Idx) (k : VolFlat.Idx), (k 0).val = b0 → (k 1).val = (z 1).val →
      (k 2).val = b2 * 36864 + (z 2).val → x0 z = v k)
    (h1 : ∀ (z : S1x32x1.Idx) (k : ActCol.Idx), (k 0).val = b0 → (k 1).val = (z 1).val → (k 2).val = (z 2).val → x1 z = a k)
    (y : S1x64x36864.Idx) (i : OutFlat.Idx) (hi0 : (i 0).val = b0) (hi1 : (i 1).val = (y 1).val)
    (hi2 : (i 2).val = b2 * 36864 + (y 2).val) :
    Block.blockJoin x0 x1 y = joinedFlat v a i := by
  unfold Block.blockJoin joinedFlat
  by_cases hc : (y 1).val < 32
  · rw [dif_pos hc, dif_pos (show (i 1).val < 32 by rw [hi1]; exact hc)]
    exact h0 _ _ hi0 hi1 hi2
  · rw [dif_neg hc, dif_neg (show ¬ (i 1).val < 32 by rw [hi1]; exact hc)]
    refine h1 _ _ hi0 ?_ rfl
    show (i 1).val - 32 = (y 1).val - 32
    rw [hi1]

/-- WHAT POINT `t` WRITES BACK is block `t` of the flat join of the two arrays the region reads. -/
theorem flushed_eq (c : Dev nD) (t : Fin cfg0.N) :
    (dats m 0 c).flushed 2 t = ((cfg0.win 2).blk t).view.read (Elt F)
      (joinedFlat (V m c main_v33 : S4x32x884736.Idx → Elt F .f32) (V m c main_v34 : S4x32x1.Idx → Elt F .f32)) := by
  show (cfg0.win 2).cut (grid0.coords t) ((dats m 0 c).after 2 t) = _
  rw [after0_2, Block.block_eq]
  obtain ⟨e00, e01, e02, e10, e11, e12, e21, -, -⟩ := idx_facts t
  funext y
  rw [View.read_apply]
  refine blockJoin_eq_joinedFlat _ _ (iblk m c 0 t) (iblk m c 1 t) (win0_2.index t (0 : Fin 3)) (win0_2.index t (2 : Fin 3))
    (fun z k hk0 hk1 hk2 => volBlock_apply m c t z k (by rw [e00]; exact hk0)
      (by rw [e01, Nat.zero_mul, Nat.zero_add]; exact hk1) (by rw [e02]; exact hk2))
    (fun z k hk0 hk1 hk2 => actBlock_apply m c t z k (by rw [e10]; exact hk0)
      (by rw [e11, Nat.zero_mul, Nat.zero_add]; exact hk1) (by rw [e12, Nat.zero_mul, Nat.zero_add]; exact hk2))
    y _ ?_ ?_ ?_
  · show win0_2.index t (0 : Fin 3) * 1 + 1 * (y 0).val = win0_2.index t (0 : Fin 3)
    have : (y 0).val < 1 := (y 0).isLt
    omega
  · show win0_2.index t (1 : Fin 3) * 64 + 1 * (y 1).val = (y 1).val
    omega
  · show win0_2.index t (2 : Fin 3) * 36864 + 1 * (y 2).val = win0_2.index t (2 : Fin 3) * 36864 + (y 2).val
    omega

/-- An index of the flat result is in point `t`'s block iff each coordinate is in the block's range on its axis. -/
theorem mem_blk (t : Fin cfg0.N) (i : S4x64x884736.Idx) :
    i ∈ ((cfg0.win 2).blk t).view.set ↔ ∀ a : Fin 3, win0_2.index t a * S1x64x36864.size a ≤ (i a).val
      ∧ (i a).val < win0_2.index t a * S1x64x36864.size a + S1x64x36864.size a := by
  show i ∈ ((View.whole main_v35).slice (win0_2.rect t)).set ↔ _
  rw [View.set_slice_whole, Rect.mem_set_unit]
  exact Iff.rfl

/-- Every index `(n, c, s)` of the flat result is in the block of the point for batch entry `n` and stretch `s / 36864`. -/
theorem cover (i : S4x64x884736.Idx) :
    ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 884736 := (i 2).isLt
  obtain ⟨t, ht⟩ := idx_onto ⟨(i 0).val, hi0⟩ ⟨(i 2).val / 36864, by omega⟩
  have q0 : win0_2.index t (0 : Fin 3) = (i 0).val := congrFun ht 0
  have q1 : win0_2.index t (1 : Fin 3) = 0 := congrFun ht 1
  have q2 : win0_2.index t (2 : Fin 3) = (i 2).val / 36864 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 64 ≤ (i 1).val ∧ (i 1).val < win0_2.index t (1 : Fin 3) * 64 + 64
    omega
  | ⟨2, _⟩ =>
    show win0_2.index t (2 : Fin 3) * 36864 ≤ (i 2).val ∧ (i 2).val < win0_2.index t (2 : Fin 3) * 36864 + 36864
    omega

/-- THE FLAT RESULT after the run: the flat join of the flat volume and the activation column as the region finds them. -/
theorem final (c : Dev nD) : (dats m 0 c).arrAt 2 cfg0.N
    = joinedFlat (V m c main_v33 : S4x32x884736.Idx → Elt F .f32) (V m c main_v34 : S4x32x1.Idx → Elt F .f32) :=
  (dats m 0 c).arrAt_eq_of_cover 2 _ (fun t _ => flushed_eq m c t) cover

end Cert.KernelIdeal.Whole

end
-- ==== Proof.Around.lean ====
/-
  The host operations around the region, and the kernel program's run read as the join.

  Before the region the program computes the activation `act` [4, 32] on the host, then reshapes the volume to
  [4, 32, 884736] and the activation to a column [4, 32, 1]: these two are the arrays the region reads
  (`flatVol_eq`, `actCol_eq`; the activation's own host operations stay folded — nothing here depends on what
  they compute). After the region one reshape takes the flat result [4, 64, 884736] back to five axes
  (`tail_eq`). With Whole.lean's flat result and Joined.lean's identity between the flat and the five-axis
  statement, the program's result is the join of the volume and the activation (`result_eq`, `run`).
-/
import proofs.«117737_j54065048322100_2_alg».proof.Proof.Gen.KernelIdeal.Frame
import proofs.«117737_j54065048322100_2_alg».proof.Proof.Whole
import proofs.«117737_j54065048322100_2_alg».proof.Proof.Joined
import Idealize.ShloMosaic.Lib.StableHlo.Run
import Idealize.ShloMosaic.Lib.Pipeline.Value

noncomputable section

namespace Cert.KernelIdeal.Around

open Idealize.ShloMosaic Idealize.ShloMosaic.TcCoe Idealize.SL.Sem Idealize.ShloMosaic.StableHlo
open Idealize.ShloMosaic.Pipeline (Dat)
open Cert.KernelIdeal Cert.KernelIdeal.Gen Cert.Joined

variable {F : FTy → Type} [FloatOps F]
variable (m : (ℓ : Loc nD τ sig) → Buf (Elt F) ℓ) (ρ : Dev nD → PrngReg)

/-- The contents after two lines of host operations run one after the other. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih (op.result W)

/-- The buffer contents once the activation is computed, before the two reshapes that feed the region. -/
def beforeReshapes (c : Dev nD) : Valuation τ sig (Elt F) :=
  StableHlo.after (hostOps0 ++ hostOps0_1) (fun b => m (c, b))

/-- What the region finds in a buffer is what the two reshapes leave there, run from `beforeReshapes`. -/
theorem V_eq (c : Dev nD) (b : Ref sig .tc) :
    V m c b = StableHlo.after hostOps0_2 (beforeReshapes m c) (Proc.devRef .tc b) := by
  show StableHlo.after (List.flatten [hostOps0, hostOps0_1, hostOps0_2]) (fun b => m (c, b)) (Proc.devRef .tc b) = _
  unfold beforeReshapes
  rw [← after_append]
  refine congrArg (fun ops => StableHlo.after ops (fun b => m (c, b)) (Proc.devRef .tc b)) ?_
  simp only [List.flatten_cons, List.flatten_nil, List.append_nil, List.append_assoc]

/-- The first array the region reads is the volume with its spatial axes flattened. -/
theorem flatVol_eq (c : Dev nD) : (V m c main_v33 : S4x32x884736.Idx → Elt F .f32)
    = shapeCast S4x32x884736 (m ((c.tc : Thread nD τ).loc main_arg0) : S4x32x96x96x96.Idx → Elt F .f32)
        shapeCasts_S4x32x96x96x96_S4x32x884736 := by
  rw [← V_main_arg0 m c, V_eq m c main_v33, V_eq m c main_arg0]
  generalize beforeReshapes m c = W
  after_results
  rfl

/-- The second array the region reads is the activation as a column. -/
theorem actCol_eq (c : Dev nD) : (V m c main_v34 : S4x32x1.Idx → Elt F .f32)
    = shapeCast S4x32x1 (V m c main_v32 : S4x32.Idx → Elt F .f32) shapeCasts_S4x32_S4x32x1 := by
  rw [V_eq m c main_v34, V_eq m c main_v32]
  generalize beforeReshapes m c = W
  after_results
  rfl

/-- The program's result is the flat result of the region reshaped to five axes. -/
theorem tail_eq (c : Dev nD) : (Pipeline.afterTail₀ cfgs (dats m) 0 (V0 m) [hostOps1] c main_v36 : S4x64x96x96x96.Idx → Elt F .f32)
    = shapeCast S4x64x96x96x96 ((dats m 0 c).arrAt 2 cfg0.N : S4x64x884736.Idx → Elt F .f32)
        shapeCasts_S4x64x884736_S4x64x96x96x96 := by
  unfold Pipeline.afterTail₀
  show StableHlo.after hostOps1 _ (Proc.devRef .tc main_v36) = _
  after_results
  exact congrArg (fun y : S4x64x884736.Idx → Elt F .f32 => shapeCast S4x64x96x96x96 y shapeCasts_S4x64x884736_S4x64x96x96x96)
    (Pipeline.withArrays_arr spec0 launch0.win.arr_inj c _ _ 2)

/-- THE PROGRAM'S RESULT: the join of the volume and the activation the host operations computed. -/
theorem result_eq (c : Dev nD) : (Pipeline.afterTail₀ cfgs (dats m) 0 (V0 m) [hostOps1] c main_v36 : S4x64x96x96x96.Idx → Elt F .f32)
    = joined (m ((c.tc : Thread nD τ).loc main_arg0) : Vol.Idx → Elt F .f32) (V m c main_v32 : Act.Idx → Elt F .f32) := by
  rw [tail_eq, Whole.final, flatVol_eq, actCol_eq]
  exact unflatten_joinedFlat _ _ _ _ _

/-- The run, read: every weakly fair execution ends with the result at the join and the arguments unchanged. -/
theorem run : θ_run defs (onTc (τ := τ) (main (F := F))) ⟨m, fun _ => 0, ρ⟩ fun r => ∀ c : Dev nD,
      r.2.mem ((c.tc : Thread nD τ).loc main_v36)
        = joined (m ((c.tc : Thread nD τ).loc main_arg0) : Vol.Idx → Elt F .f32) (V m c main_v32 : Act.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v36 (Pipeline.mem_restRefs_of main_v36 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Around

end
-- ==== Proof.ActSame.lean ====
/-
  The two programs compute one activation.

  Up to the activation `act = relu(batchnorm((tab · W_projᵀ + b) · W_convᵀ) · γ + β)` the kernel program's host
  operations and the reference's are the same operations on the same arguments, with the same three literals
  (the zero of the sums and of the relu, the batch size 4, the ε of the variance). So the buffer that holds the
  activation when the kernel program reaches its region is the reference's activation stage of the launch
  arguments: the two terms are the same tree of operations, and the equation is closed by comparing them —
  the operations are never read.
-/
import proofs.«117737_j54065048322100_2_alg».proof.Proof.Gen.KernelIdeal.Frame
import proofs.«117737_j54065048322100_2_alg».proof.Proof.Gen.ReferenceIdeal.Read
import proofs.«117737_j54065048322100_2_alg».proof.Proof.Around
import Idealize.ShloMosaic.Lib.StableHlo.Run

noncomputable section

namespace Cert.KernelIdeal.ActSame

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxRecDepth 8192 in
/-- The activation buffer as the region finds it is the reference's activation stage of the launch arguments. -/
theorem act_eq (c : Dev nD) : (V m c main_v32 : S4x32.Idx → Elt F .f32)
    = Cert.ReferenceIdeal.Read.val_main_v32 (F := F)
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6)) := by
  rw [Around.V_eq m c main_v32]
  after_results
  unfold Around.beforeReshapes
  simp only [hostOps0, hostOps0_1, List.cons_append, List.nil_append]
  after_results_simp
  rfl

end Cert.KernelIdeal.ActSame

end
-- ==== Proof.RefJoin.lean ====
/-
  The reference's result is the join of the volume and its activation.

  The reference broadcasts its activation `act[n, c]` to [4, 32, 1, 1, 1], then along the three spatial axes to the
  volume's shape, and concatenates the volume and that array along the channel axis. A concatenation of two pieces
  along an axis reads, at an index whose coordinate on that axis is below the first piece's extent, the first piece at
  the same index, and otherwise the second piece with the extent subtracted on that axis; and each of the two
  broadcasts reads its operand at the leading coordinates. So the result at `(n, c, d, h, w)` is `vol[n, c, d, h, w]`
  for `c < 32` and `act[n, c - 32]` for `c ≥ 32`: Joined.lean's `joined` of the volume and the stage that computes
  the activation, which is never opened here.
-/
import proofs.«117737_j54065048322100_2_alg».proof.Proof.Gen.ReferenceIdeal.Read
import proofs.«117737_j54065048322100_2_alg».proof.Proof.Joined
import Idealize.ShloMosaic.Lib.Pipeline.Value
import Idealize.ShloMosaic.Lib.ValueIdx

noncomputable section

namespace Cert.ReferenceIdeal.RefJoin

open Idealize.ShloMosaic Idealize.ShloMosaic.ValueIdx Idealize.SL.Sem
open Cert.ReferenceIdeal Cert.ReferenceIdeal.Gen Cert.ReferenceIdeal.Read Cert.Joined

variable {F : FTy → Type} [FloatOps F]

/-- The activation spread over the spatial axes, at `(n, c, d, h, w)`, is the activation at `(n, c)`. -/
theorem spread_apply (x1 : (⟨S4x64, .f32⟩ : BufTy).Contents (Elt F)) (x2 : (⟨S32x64, .f32⟩ : BufTy).Contents (Elt F))
    (x3 : (⟨S32, .f32⟩ : BufTy).Contents (Elt F)) (x4 : (⟨S32x32, .f32⟩ : BufTy).Contents (Elt F))
    (x5 x6 : (⟨S32, .f32⟩ : BufTy).Contents (Elt F)) (n : Fin 4) (c : Fin 32) (d hh w : Fin 96) :
    val_main_v34 (F := F) x1 x2 x3 x4 x5 x6 (ix5 n c d hh w) = val_main_v32 (F := F) x1 x2 x3 x4 x5 x6 (ix2 n c) := by
  rw [val_main_v34_apply, val_main_v33_apply]
  refine congrArg (val_main_v32 (F := F) x1 x2 x3 x4 x5 x6) (funext fun a => ?_)
  match a with
  | ⟨0, _⟩ => rfl
  | ⟨1, _⟩ => rfl

/-- THE REFERENCE'S RESULT is the join of the volume and the activation stage. -/
theorem result_eq (x0 : (⟨S4x32x96x96x96, .f32⟩ : BufTy).Contents (Elt F)) (x1 : (⟨S4x64, .f32⟩ : BufTy).Contents (Elt F))
    (x2 : (⟨S32x64, .f32⟩ : BufTy).Contents (Elt F)) (x3 : (⟨S32, .f32⟩ : BufTy).Contents (Elt F))
    (x4 : (⟨S32x32, .f32⟩ : BufTy).Contents (Elt F)) (x5 x6 : (⟨S32, .f32⟩ : BufTy).Contents (Elt F)) :
    val_main_v35 (F := F) x0 x1 x2 x3 x4 x5 x6
      = joined (x0 : Vol.Idx → Elt F .f32) (val_main_v32 (F := F) x1 x2 x3 x4 x5 x6 : Act.Idx → Elt F .f32) := by
  funext j
  obtain ⟨n, c, d, hh, w, rfl⟩ : ∃ (n : Fin 4) (c : Fin 64) (d hh w : Fin 96), j = ix5 n c d hh w :=
    ⟨j 0, j 1, j 2, j 3, j 4, eq_ix5 j⟩
  have hc64 : c.val < 64 := c.isLt
  unfold val_main_v35 joined
  by_cases hc : c.val < 32
  · rw [dif_pos (show ((ix5 n c d hh w : Out.Idx) 1).val < 32 from hc)]
    refine concatenate_pair_apply_left (s₁ := S4x32x96x96x96) (s₂ := S4x32x96x96x96) (1 : Fin 5) x0
      (val_main_v34 (F := F) x1 x2 x3 x4 x5 x6) _ (ix5 n c d hh w) rfl
      (ix5 n (⟨c.val, hc⟩ : Fin 32) d hh w) (fun b => ?_)
    match b with
    | ⟨0, _⟩ => rfl
    | ⟨1, _⟩ => rfl
    | ⟨2, _⟩ => rfl
    | ⟨3, _⟩ => rfl
    | ⟨4, _⟩ => rfl
  · rw [dif_neg (show ¬ ((ix5 n c d hh w : Out.Idx) 1).val < 32 from hc)]
    refine (concatenate_pair_apply_right (s₁ := S4x32x96x96x96) (s₂ := S4x32x96x96x96) (1 : Fin 5) x0
      (val_main_v34 (F := F) x1 x2 x3 x4 x5 x6) _ (ix5 n c d hh w) rfl rfl
      (ix5 n (⟨c.val - 32, by omega⟩ : Fin 32) d hh w) (fun b hb => ?_) ?_).trans ?_
    · match b with
      | ⟨0, _⟩ => rfl
      | ⟨1, _⟩ => exact absurd rfl hb
      | ⟨2, _⟩ => rfl
      | ⟨3, _⟩ => rfl
      | ⟨4, _⟩ => rfl
    · show c.val - 32 + 32 = c.val
      omega
    · exact spread_apply x1 x2 x3 x4 x5 x6 n _ d hh w

end Cert.ReferenceIdeal.RefJoin

end
-- ==== Proof.lean ====
/-
  The kernel concatenates a volume `vol` [4, 32, 96, 96, 96] with an activation `act` [4, 32], constant over the
  spatial axes, along the channel axis: `out[n, c, d, h, w] = vol[n, c, d, h, w]` for `c < 32` and
  `act[n, c - 32]` for `c ≥ 32`. Both programs compute `act` by the same host operations (a projection, a channel
  mix, a batch normalisation over the batch axis, a relu). The kernel program then flattens the spatial axes,
  writes the flat result block by block in one region — each block's upper 32 rows a copy of the volume's block,
  its lower 32 rows the activation column spread along the lanes — and reshapes the flat result back; the reference
  broadcasts the activation over the spatial axes and concatenates.

  The proof: Joined.lean states the result as one array, with five axes and with the spatial axes flat, and shows
  the two statements are one; Block.lean reads what the body leaves in a block; Whole.lean goes from blocks to the
  flat result; Around.lean reads the reshapes before and after the region and the program's run; RefJoin.lean reads
  the reference's broadcasts and its concatenation; ActSame.lean says the two activations are one term. No law of
  arithmetic is used: the result moves values and never computes with them, so the precondition is not opened and
  the equality holds for every extended real.

  The three frames are the generated ones (the reference's is its generated run with the result dropped); the
  idealization rewrote nothing, so `preserves` is trivial.
-/
import proofs.«117737_j54065048322100_2_alg».proof.Defs
import proofs.«117737_j54065048322100_2_alg».proof.Proof.Gen.Kernel
import proofs.«117737_j54065048322100_2_alg».proof.Proof.Gen.Kernel.Skeleton
import proofs.«117737_j54065048322100_2_alg».proof.Proof.Gen.Kernel.Launch
import proofs.«117737_j54065048322100_2_alg».proof.Proof.Gen.Kernel.Points
import proofs.«117737_j54065048322100_2_alg».proof.Proof.Gen.Kernel.Frame
import proofs.«117737_j54065048322100_2_alg».proof.Proof.Gen.KernelIdeal
import proofs.«117737_j54065048322100_2_alg».proof.Proof.Gen.KernelIdeal.Skeleton
import proofs.«117737_j54065048322100_2_alg».proof.Proof.Gen.KernelIdeal.Launch
import proofs.«117737_j54065048322100_2_alg».proof.Proof.Gen.KernelIdeal.Points
import proofs.«117737_j54065048322100_2_alg».proof.Proof.Gen.KernelIdeal.Frame
import proofs.«117737_j54065048322100_2_alg».proof.Proof.Gen.ReferenceIdeal
import proofs.«117737_j54065048322100_2_alg».proof.Proof.Gen.Pre_finite_inputs
import proofs.«117737_j54065048322100_2_alg».proof.Proof.Gen.ReferenceIdeal.Run
import proofs.«117737_j54065048322100_2_alg».proof.Proof.Gen.ReferenceIdeal.Read
import proofs.«117737_j54065048322100_2_alg».proof.Proof.Around
import proofs.«117737_j54065048322100_2_alg».proof.Proof.ActSame
import proofs.«117737_j54065048322100_2_alg».proof.Proof.RefJoin
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end, from memories that agree on the arguments, with the join of the volume and the activation:
    the kernel program by its run read in Around.lean, the reference by its generated run, its last stage read in
    RefJoin.lean; the activations are one term of the arguments (ActSame.lean). -/
theorem algebraic : Cert.algebraic_KernelIdeal_ReferenceIdeal := by
  intro m ρ m' ρ' _ hagree
  refine ⟨fun c => Cert.Joined.joined (m ((c.tc : Thread Cert.KernelIdeal.nD Cert.KernelIdeal.τ).loc Cert.KernelIdeal.main_arg0))
      (Cert.KernelIdeal.Gen.V m c Cert.KernelIdeal.main_v32), Cert.KernelIdeal.Around.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v35_eq, Cert.ReferenceIdeal.RefJoin.result_eq, e0, e1, e2, e3, e4, e5, e6]
  exact congrArg (Cert.Joined.joined _) (Cert.KernelIdeal.ActSame.act_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
